-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S14155776 : Shape := ⟨1, ![14155776]⟩
abbrev S7077888 : Shape := ⟨1, ![7077888]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S14155776 : S_.BroadcastsInDim S14155776 (![] : Fin 0 → Fin S14155776.rank)
  reducesTo_S14155776_S_d0 : S14155776.ReducesTo [0] S_
  bcast_S_S7077888 : S_.BroadcastsInDim S7077888 (![] : Fin 0 → Fin S7077888.rank)
  reducesTo_S7077888_S_d0 : S7077888.ReducesTo [0] S_

variable [Facts]

def fn_part2 {F : FTy → Type} [FloatOps F] (main_arg7 : FVec F S7077888 .f32) (main_arg8 : FVec F S7077888 .f32) (main_v33 : IVec S_ 1) : IVec S_ 1 :=
  let main_v34 : FVec F S7077888 .f32 := Host.absf main_arg7
  let main_cst_12 : FVec F S_ .f32 := constant S_ .f32 0x7F800000#32
  let main_v35 : FVec F S7077888 .f32 := broadcastInDim S7077888 ![] bcast_S_S7077888 main_cst_12
  let main_v36 : IVec S7077888 1 := cmpf .olt main_v34 main_v35
  let main_c_13 : IVec S_ 1 := constantI S_ 1 1#1
  let main_v37 : IVec S_ 1 := (fun x v => Host.reduce IntOp.andi x v reducesTo_S7077888_S_d0 h_S_) main_v36 main_c_13
  let main_v38 : IVec S_ 1 := andi main_v33 main_v37
  let main_v39 : FVec F S7077888 .f32 := Host.absf main_arg8
  let main_cst_14 : FVec F S_ .f32 := constant S_ .f32 0x7F800000#32
  let main_v40 : FVec F S7077888 .f32 := broadcastInDim S7077888 ![] bcast_S_S7077888 main_cst_14
  let main_v41 : IVec S7077888 1 := cmpf .olt main_v39 main_v40
  let main_c_15 : IVec S_ 1 := constantI S_ 1 1#1
  let main_v42 : IVec S_ 1 := (fun x v => Host.reduce IntOp.andi x v reducesTo_S7077888_S_d0 h_S_) main_v41 main_c_15
  let main_v43 : IVec S_ 1 := andi main_v38 main_v42
  main_v43

def fn_part1 {F : FTy → Type} [FloatOps F] (main_arg4 : FVec F S7077888 .f32) (main_arg5 : FVec F S7077888 .f32) (main_arg6 : FVec F S7077888 .f32) (main_arg7 : FVec F S7077888 .f32) (main_arg8 : FVec F S7077888 .f32) (main_v13 : IVec S_ 1) (main_v16 : IVec S7077888 1) : IVec S_ 1 :=
  let main_c_5 : IVec S_ 1 := constantI S_ 1 1#1
  let main_v17 : IVec S_ 1 := (fun x v => Host.reduce IntOp.andi x v reducesTo_S7077888_S_d0 h_S_) main_v16 main_c_5
  let main_v18 : IVec S_ 1 := andi main_v13 main_v17
  let main_v19 : FVec F S7077888 .f32 := Host.absf main_arg4
  let main_cst_6 : FVec F S_ .f32 := constant S_ .f32 0x7F800000#32
  let main_v20 : FVec F S7077888 .f32 := broadcastInDim S7077888 ![] bcast_S_S7077888 main_cst_6
  let main_v21 : IVec S7077888 1 := cmpf .olt main_v19 main_v20
  let main_c_7 : IVec S_ 1 := constantI S_ 1 1#1
  let main_v22 : IVec S_ 1 := (fun x v => Host.reduce IntOp.andi x v reducesTo_S7077888_S_d0 h_S_) main_v21 main_c_7
  let main_v23 : IVec S_ 1 := andi main_v18 main_v22
  let main_v24 : FVec F S7077888 .f32 := Host.absf main_arg5
  let main_cst_8 : FVec F S_ .f32 := constant S_ .f32 0x7F800000#32
  let main_v25 : FVec F S7077888 .f32 := broadcastInDim S7077888 ![] bcast_S_S7077888 main_cst_8
  let main_v26 : IVec S7077888 1 := cmpf .olt main_v24 main_v25
  let main_c_9 : IVec S_ 1 := constantI S_ 1 1#1
  let main_v27 : IVec S_ 1 := (fun x v => Host.reduce IntOp.andi x v reducesTo_S7077888_S_d0 h_S_) main_v26 main_c_9
  let main_v28 : IVec S_ 1 := andi main_v23 main_v27
  let main_v29 : FVec F S7077888 .f32 := Host.absf main_arg6
  let main_cst_10 : FVec F S_ .f32 := constant S_ .f32 0x7F800000#32
  let main_v30 : FVec F S7077888 .f32 := broadcastInDim S7077888 ![] bcast_S_S7077888 main_cst_10
  let main_v31 : IVec S7077888 1 := cmpf .olt main_v29 main_v30
  let main_c_11 : IVec S_ 1 := constantI S_ 1 1#1
  let main_v32 : IVec S_ 1 := (fun x v => Host.reduce IntOp.andi x v reducesTo_S7077888_S_d0 h_S_) main_v31 main_c_11
  let main_v33 : IVec S_ 1 := andi main_v28 main_v32
  fn_part2 (F := F) main_arg7 main_arg8 main_v33

def fn {F : FTy → Type} [FloatOps F] (main_arg0 : FVec F S1 .f32) (main_arg1 : FVec F S14155776 .f32) (main_arg2 : FVec F S7077888 .f32) (main_arg3 : FVec F S7077888 .f32) (main_arg4 : FVec F S7077888 .f32) (main_arg5 : FVec F S7077888 .f32) (main_arg6 : FVec F S7077888 .f32) (main_arg7 : FVec F S7077888 .f32) (main_arg8 : FVec F S7077888 .f32) (main_arg9 : IVec S7077888 32) (main_arg10 : IVec S7077888 32) (main_arg11 : IVec S7077888 32) (main_arg12 : IVec S7077888 32) (main_arg13 : IVec S7077888 32) (main_arg14 : IVec S7077888 32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S14155776 .f32 := Host.absf main_arg1
  let main_cst_0 : FVec F S_ .f32 := constant S_ .f32 0x7F800000#32
  let main_v5 : FVec F S14155776 .f32 := broadcastInDim S14155776 ![] bcast_S_S14155776 main_cst_0
  let main_v6 : IVec S14155776 1 := cmpf .olt main_v4 main_v5
  let main_c_1 : IVec S_ 1 := constantI S_ 1 1#1
  let main_v7 : IVec S_ 1 := (fun x v => Host.reduce IntOp.andi x v reducesTo_S14155776_S_d0 h_S_) main_v6 main_c_1
  let main_v8 : IVec S_ 1 := andi main_v3 main_v7
  let main_v9 : FVec F S7077888 .f32 := Host.absf main_arg2
  let main_cst_2 : FVec F S_ .f32 := constant S_ .f32 0x7F800000#32
  let main_v10 : FVec F S7077888 .f32 := broadcastInDim S7077888 ![] bcast_S_S7077888 main_cst_2
  let main_v11 : IVec S7077888 1 := cmpf .olt main_v9 main_v10
  let main_c_3 : IVec S_ 1 := constantI S_ 1 1#1
  let main_v12 : IVec S_ 1 := (fun x v => Host.reduce IntOp.andi x v reducesTo_S7077888_S_d0 h_S_) main_v11 main_c_3
  let main_v13 : IVec S_ 1 := andi main_v8 main_v12
  let main_v14 : FVec F S7077888 .f32 := Host.absf main_arg3
  let main_cst_4 : FVec F S_ .f32 := constant S_ .f32 0x7F800000#32
  let main_v15 : FVec F S7077888 .f32 := broadcastInDim S7077888 ![] bcast_S_S7077888 main_cst_4
  let main_v16 : IVec S7077888 1 := cmpf .olt main_v14 main_v15
  fn_part1 (F := F) main_arg4 main_arg5 main_arg6 main_arg7 main_arg8 main_v13 main_v16
-- ==== Kernel.lean ====
abbrev S1 : Shape := ⟨1, ![1]⟩
abbrev S14155776 : Shape := ⟨1, ![14155776]⟩
abbrev S7077888 : Shape := ⟨1, ![7077888]⟩
abbrev S_ : Shape := ⟨0, ![]⟩
abbrev S7077888x1 : Shape := ⟨2, ![7077888, 1]⟩
abbrev S55296x128 : Shape := ⟨2, ![55296, 128]⟩
abbrev S1152x128 : Shape := ⟨2, ![1152, 128]⟩

abbrev nBuf : Space → Nat
  | .hbm => 151
  | .vmem => 46
  | .smem => 0
  | _ => 0

abbrev hbmTy0_0 (i : Nat) : BufTy := match i % 128 with
  | 0 => ⟨S1, .f32⟩
  | 1 => ⟨S14155776, .f32⟩
  | 2 => ⟨S7077888, .f32⟩
  | 3 => ⟨S7077888, .f32⟩
  | 4 => ⟨S7077888, .f32⟩
  | 5 => ⟨S7077888, .f32⟩
  | 6 => ⟨S7077888, .f32⟩
  | 7 => ⟨S7077888, .f32⟩
  | 8 => ⟨S7077888, .f32⟩
  | 9 => ⟨S7077888, .i32⟩
  | 10 => ⟨S7077888, .i32⟩
  | 11 => ⟨S7077888, .i32⟩
  | 12 => ⟨S7077888, .i32⟩
  | 13 => ⟨S7077888, .i32⟩
  | 14 => ⟨S7077888, .i32⟩
  | 15 => ⟨S7077888, .f32⟩
  | 16 => ⟨S7077888, .f32⟩
  | 17 => ⟨S_, .i32⟩
  | 18 => ⟨S7077888, .i32⟩
  | 19 => ⟨S7077888, .i1⟩
  | 20 => ⟨S_, .i32⟩
  | 21 => ⟨S7077888, .i32⟩
  | 22 => ⟨S7077888, .i32⟩
  | 23 => ⟨S7077888, .i32⟩
  | 24 => ⟨S7077888x1, .i32⟩
  | 25 => ⟨S7077888, .f32⟩
  | 26 => ⟨S_, .i32⟩
  | 27 => ⟨S7077888, .i32⟩
  | 28 => ⟨S7077888, .i1⟩
  | 29 => ⟨S_, .i32⟩
  | 30 => ⟨S7077888, .i32⟩
  | 31 => ⟨S7077888, .i32⟩
  | 32 => ⟨S7077888, .i32⟩
  | 33 => ⟨S7077888x1, .i32⟩
  | 34 => ⟨S7077888, .f32⟩
  | 35 => ⟨S_, .i32⟩
  | 36 => ⟨S7077888, .i32⟩
  | 37 => ⟨S7077888, .i1⟩
  | 38 => ⟨S_, .i32⟩
  | 39 => ⟨S7077888, .i32⟩
  | 40 => ⟨S7077888, .i32⟩
  | 41 => ⟨S7077888, .i32⟩
  | 42 => ⟨S7077888x1, .i32⟩
  | 43 => ⟨S7077888, .f32⟩
  | 44 => ⟨S_, .i32⟩
  | 45 => ⟨S7077888, .i32⟩
  | 46 => ⟨S7077888, .i1⟩
  | 47 => ⟨S_, .i32⟩
  | 48 => ⟨S7077888, .i32⟩
  | 49 => ⟨S7077888, .i32⟩
  | 50 => ⟨S7077888, .i32⟩
  | 51 => ⟨S7077888x1, .i32⟩
  | 52 => ⟨S7077888, .f32⟩
  | 53 => ⟨S_, .i32⟩
  | 54 => ⟨S7077888, .i32⟩
  | 55 => ⟨S7077888, .i1⟩
  | 56 => ⟨S_, .i32⟩
  | 57 => ⟨S7077888, .i32⟩
  | 58 => ⟨S7077888, .i32⟩
  | 59 => ⟨S7077888, .i32⟩
  | 60 => ⟨S7077888x1, .i32⟩
  | 61 => ⟨S7077888, .f32⟩
  | 62 => ⟨S_, .i32⟩
  | 63 => ⟨S7077888, .i32⟩
  | 64 => ⟨S7077888, .i1⟩
  | 65 => ⟨S_, .i32⟩
  | 66 => ⟨S7077888, .i32⟩
  | 67 => ⟨S7077888, .i32⟩
  | 68 => ⟨S7077888, .i32⟩
  | 69 => ⟨S7077888x1, .i32⟩
  | 70 => ⟨S7077888, .f32⟩
  | 71 => ⟨S_, .i32⟩
  | 72 => ⟨S7077888, .i32⟩
  | 73 => ⟨S7077888, .i1⟩
  | 74 => ⟨S_, .i32⟩
  | 75 => ⟨S7077888, .i32⟩
  | 76 => ⟨S7077888, .i32⟩
  | 77 => ⟨S7077888, .i32⟩
  | 78 => ⟨S7077888x1, .i32⟩
  | 79 => ⟨S7077888, .f32⟩
  | 80 => ⟨S_, .i32⟩
  | 81 => ⟨S7077888, .i32⟩
  | 82 => ⟨S7077888, .i1⟩
  | 83 => ⟨S_, .i32⟩
  | 84 => ⟨S7077888, .i32⟩
  | 85 => ⟨S7077888, .i32⟩
  | 86 => ⟨S7077888, .i32⟩
  | 87 => ⟨S7077888x1, .i32⟩
  | 88 => ⟨S7077888, .f32⟩
  | 89 => ⟨S_, .i32⟩
  | 90 => ⟨S7077888, .i32⟩
  | 91 => ⟨S7077888, .i1⟩
  | 92 => ⟨S_, .i32⟩
  | 93 => ⟨S7077888, .i32⟩
  | 94 => ⟨S7077888, .i32⟩
  | 95 => ⟨S7077888, .i32⟩
  | 96 => ⟨S7077888x1, .i32⟩
  | 97 => ⟨S7077888, .f32⟩
  | 98 => ⟨S_, .i32⟩
  | 99 => ⟨S7077888, .i32⟩
  | 100 => ⟨S7077888, .i1⟩
  | 101 => ⟨S_, .i32⟩
  | 102 => ⟨S7077888, .i32⟩
  | 103 => ⟨S7077888, .i32⟩
  | 104 => ⟨S7077888, .i32⟩
  | 105 => ⟨S7077888x1, .i32⟩
  | 106 => ⟨S7077888, .f32⟩
  | 107 => ⟨S_, .i32⟩
  | 108 => ⟨S7077888, .i32⟩
  | 109 => ⟨S7077888, .i1⟩
  | 110 => ⟨S_, .i32⟩
  | 111 => ⟨S7077888, .i32⟩
  | 112 => ⟨S7077888, .i32⟩
  | 113 => ⟨S7077888, .i32⟩
  | 114 => ⟨S7077888x1, .i32⟩
  | 115 => ⟨S7077888, .f32⟩
  | 116 => ⟨S_, .i32⟩
  | 117 => ⟨S7077888, .i32⟩
  | 118 => ⟨S7077888, .i1⟩
  | 119 => ⟨S_, .i32⟩
  | 120 => ⟨S7077888, .i32⟩
  | 121 => ⟨S7077888, .i32⟩
  | 122 => ⟨S7077888, .i32⟩
  | 123 => ⟨S7077888x1, .i32⟩
  | 124 => ⟨S7077888, .f32⟩
  | 125 => ⟨S55296x128, .f32⟩
  | 126 => ⟨S55296x128, .f32⟩
  | 127 => ⟨S55296x128, .f32⟩
  | _ => ⟨S1, .f32⟩

abbrev hbmTy0_1 (i : Nat) : BufTy := match i % 128 with
  | 0 => ⟨S55296x128, .f32⟩
  | 1 => ⟨S55296x128, .f32⟩
  | 2 => ⟨S55296x128, .f32⟩
  | 3 => ⟨S55296x128, .f32⟩
  | 4 => ⟨S55296x128, .f32⟩
  | 5 => ⟨S55296x128, .f32⟩
  | 6 => ⟨S55296x128, .f32⟩
  | 7 => ⟨S55296x128, .f32⟩
  | 8 => ⟨S55296x128, .f32⟩
  | 9 => ⟨S55296x128, .f32⟩
  | 10 => ⟨S55296x128, .f32⟩
  | 11 => ⟨S55296x128, .f32⟩
  | 12 => ⟨S55296x128, .f32⟩
  | 13 => ⟨S55296x128, .f32⟩
  | 14 => ⟨S55296x128, .f32⟩
  | 15 => ⟨S55296x128, .f32⟩
  | 16 => ⟨S55296x128, .f32⟩
  | 17 => ⟨S55296x128, .f32⟩
  | 18 => ⟨S55296x128, .f32⟩
  | 19 => ⟨S55296x128, .f32⟩
  | 20 => ⟨S7077888, .f32⟩
  | 21 => ⟨S7077888, .f32⟩
  | 22 => ⟨S14155776, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | .local _ .vmem, ⟨0, _⟩ => ⟨S1152x128, .f32⟩
  | .local _ .vmem, ⟨1, _⟩ => ⟨S1152x128, .f32⟩
  | .local _ .vmem, ⟨2, _⟩ => ⟨S1152x128, .f32⟩
  | .local _ .vmem, ⟨3, _⟩ => ⟨S1152x128, .f32⟩
  | .local _ .vmem, ⟨4, _⟩ => ⟨S1152x128, .f32⟩
  | .local _ .vmem, ⟨5, _⟩ => ⟨S1152x128, .f32⟩
  | .local _ .vmem, ⟨6, _⟩ => ⟨S1152x128, .f32⟩
  | .local _ .vmem, ⟨7, _⟩ => ⟨S1152x128, .f32⟩
  | .local _ .vmem, ⟨8, _⟩ => ⟨S1152x128, .f32⟩
  | .local _ .vmem, ⟨9, _⟩ => ⟨S1152x128, .f32⟩
  | .local _ .vmem, ⟨10, _⟩ => ⟨S1152x128, .f32⟩
  | .local _ .vmem, ⟨11, _⟩ => ⟨S1152x128, .f32⟩
  | .local _ .vmem, ⟨12, _⟩ => ⟨S1152x128, .f32⟩
  | .local _ .vmem, ⟨13, _⟩ => ⟨S1152x128, .f32⟩
  | .local _ .vmem, ⟨14, _⟩ => ⟨S1152x128, .f32⟩
  | .local _ .vmem, ⟨15, _⟩ => ⟨S1152x128, .f32⟩
  | .local _ .vmem, ⟨16, _⟩ => ⟨S1152x128, .f32⟩
  | .local _ .vmem, ⟨17, _⟩ => ⟨S1152x128, .f32⟩
  | .local _ .vmem, ⟨18, _⟩ => ⟨S1152x128, .f32⟩
  | .local _ .vmem, ⟨19, _⟩ => ⟨S1152x128, .f32⟩
  | .local _ .vmem, ⟨20, _⟩ => ⟨S1152x128, .f32⟩
  | .local _ .vmem, ⟨21, _⟩ => ⟨S1152x128, .f32⟩
  | .local _ .vmem, ⟨22, _⟩ => ⟨S1152x128, .f32⟩
  | .local _ .vmem, ⟨23, _⟩ => ⟨S1152x128, .f32⟩
  | .local _ .vmem, ⟨24, _⟩ => ⟨S1152x128, .f32⟩
  | .local _ .vmem, ⟨25, _⟩ => ⟨S1152x128, .f32⟩
  | .local _ .vmem, ⟨26, _⟩ => ⟨S1152x128, .f32⟩
  | .local _ .vmem, ⟨27, _⟩ => ⟨S1152x128, .f32⟩
  | .local _ .vmem, ⟨28, _⟩ => ⟨S1152x128, .f32⟩
  | .local _ .vmem, ⟨29, _⟩ => ⟨S1152x128, .f32⟩
  | .local _ .vmem, ⟨30, _⟩ => ⟨S1152x128, .f32⟩
  | .local _ .vmem, ⟨31, _⟩ => ⟨S1152x128, .f32⟩
  | .local _ .vmem, ⟨32, _⟩ => ⟨S1152x128, .f32⟩
  | .local _ .vmem, ⟨33, _⟩ => ⟨S1152x128, .f32⟩
  | .local _ .vmem, ⟨34, _⟩ => ⟨S1152x128, .f32⟩
  | .local _ .vmem, ⟨35, _⟩ => ⟨S1152x128, .f32⟩
  | .local _ .vmem, ⟨36, _⟩ => ⟨S1152x128, .f32⟩
  | .local _ .vmem, ⟨37, _⟩ => ⟨S1152x128, .f32⟩
  | .local _ .vmem, ⟨38, _⟩ => ⟨S1152x128, .f32⟩
  | .local _ .vmem, ⟨39, _⟩ => ⟨S1152x128, .f32⟩
  | .local _ .vmem, ⟨40, _⟩ => ⟨S1152x128, .f32⟩
  | .local _ .vmem, ⟨41, _⟩ => ⟨S1152x128, .f32⟩
  | .local _ .vmem, ⟨42, _⟩ => ⟨S1152x128, .f32⟩
  | .local _ .vmem, ⟨43, _⟩ => ⟨S1152x128, .f32⟩
  | .local _ .vmem, ⟨44, _⟩ => ⟨S1152x128, .f32⟩
  | .local _ .vmem, ⟨45, _⟩ => ⟨S1152x128, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_c_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_15 : Ref sig .tc := ⟨.hbm, 89, rfl⟩
abbrev main_v58 : Ref sig .tc := ⟨.hbm, 90, rfl⟩
abbrev main_v59 : Ref sig .tc := ⟨.hbm, 91, rfl⟩
abbrev main_c_16 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_17 : Ref sig .tc := ⟨.hbm, 98, rfl⟩
abbrev main_v65 : Ref sig .tc := ⟨.hbm, 99, rfl⟩
abbrev main_v66 : Ref sig .tc := ⟨.hbm, 100, rfl⟩
abbrev main_c_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_19 : Ref sig .tc := ⟨.hbm, 107, rfl⟩
abbrev main_v72 : Ref sig .tc := ⟨.hbm, 108, rfl⟩
abbrev main_v73 : Ref sig .tc := ⟨.hbm, 109, rfl⟩
abbrev main_c_20 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_21 : Ref sig .tc := ⟨.hbm, 116, rfl⟩
abbrev main_v79 : Ref sig .tc := ⟨.hbm, 117, rfl⟩
abbrev main_v80 : Ref sig .tc := ⟨.hbm, 118, rfl⟩
abbrev main_c_22 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107_0 : Ref sig .tc := ⟨.hbm, 146, rfl⟩
abbrev main_v107_1 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1152x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1152x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1152x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1152x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1152x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1152x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1152x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1152x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1152x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1152x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1152x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1152x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1152x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1152x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1152x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1152x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1152x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  slices_S14155776_S7077888_0 : S14155776.Slices ![0] S7077888
  slices_S14155776_S7077888_7077888 : S14155776.Slices ![7077888] S7077888
  bcast_S_S7077888 : S_.BroadcastsInDim S7077888 (![] : Fin 0 → Fin S7077888.rank)
  bcast_S7077888_S7077888x1_0 : S7077888.BroadcastsInDim S7077888x1 (![0] : Fin 1 → Fin S7077888x1.rank)
  shapeCasts_S7077888_S55296x128 : S7077888.ShapeCasts S55296x128
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  shapeCasts_S55296x128_S7077888 : S55296x128.ShapeCasts S7077888
  concatenates_S7077888_S7077888_S14155776_d0 : Shape.Concatenates [S7077888, S7077888] S14155776 0
  gather_S7077888_S7077888x1_S7077888_n_0_n_n_0_1_1_wf : GatherDims.WF S7077888 S7077888x1 S7077888 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1152x128.size a ≤ S55296x128.size a
  hwx0_0 : ∀ i : grid0.Coords, EltTy.bits .f32 = 32 ∨ (Rect.block (s := S55296x128) S1152x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1152x128.size a ≤ S55296x128.size a
  hwx0_1 : ∀ i : grid0.Coords, EltTy.bits .f32 = 32 ∨ (Rect.block (s := S55296x128) S1152x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1152x128.size a ≤ S55296x128.size a
  hwx0_2 : ∀ i : grid0.Coords, EltTy.bits .f32 = 32 ∨ (Rect.block (s := S55296x128) S1152x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1152x128.size a ≤ S55296x128.size a
  hwx0_3 : ∀ i : grid0.Coords, EltTy.bits .f32 = 32 ∨ (Rect.block (s := S55296x128) S1152x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1152x128.size a ≤ S55296x128.size a
  hwx0_4 : ∀ i : grid0.Coords, EltTy.bits .f32 = 32 ∨ (Rect.block (s := S55296x128) S1152x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1152x128.size a ≤ S55296x128.size a
  hwx0_5 : ∀ i : grid0.Coords, EltTy.bits .f32 = 32 ∨ (Rect.block (s := S55296x128) S1152x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1152x128.size a ≤ S55296x128.size a
  hwx0_6 : ∀ i : grid0.Coords, EltTy.bits .f32 = 32 ∨ (Rect.block (s := S55296x128) S1152x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1152x128.size a ≤ S55296x128.size a
  hwx0_7 : ∀ i : grid0.Coords, EltTy.bits .f32 = 32 ∨ (Rect.block (s := S55296x128) S1152x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1152x128.size a ≤ S55296x128.size a
  hwx0_8 : ∀ i : grid0.Coords, EltTy.bits .f32 = 32 ∨ (Rect.block (s := S55296x128) S1152x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1152x128.size a ≤ S55296x128.size a
  hwx0_9 : ∀ i : grid0.Coords, EltTy.bits .f32 = 32 ∨ (Rect.block (s := S55296x128) S1152x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1152x128.size a ≤ S55296x128.size a
  hwx0_10 : ∀ i : grid0.Coords, EltTy.bits .f32 = 32 ∨ (Rect.block (s := S55296x128) S1152x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1152x128.size a ≤ S55296x128.size a
  hwx0_11 : ∀ i : grid0.Coords, EltTy.bits .f32 = 32 ∨ (Rect.block (s := S55296x128) S1152x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1152x128.size a ≤ S55296x128.size a
  hwx0_12 : ∀ i : grid0.Coords, EltTy.bits .f32 = 32 ∨ (Rect.block (s := S55296x128) S1152x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1152x128.size a ≤ S55296x128.size a
  hwx0_13 : ∀ i : grid0.Coords, EltTy.bits .f32 = 32 ∨ (Rect.block (s := S55296x128) S1152x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1152x128.size a ≤ S55296x128.size a
  hwx0_14 : ∀ i : grid0.Coords, EltTy.bits .f32 = 32 ∨ (Rect.block (s := S55296x128) S1152x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1152x128.size a ≤ S55296x128.size a
  hwx0_15 : ∀ i : grid0.Coords, EltTy.bits .f32 = 32 ∨ (Rect.block (s := S55296x128) S1152x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1152x128.size a ≤ S55296x128.size a
  hwx0_16 : ∀ i : grid0.Coords, EltTy.bits .f32 = 32 ∨ (Rect.block (s := S55296x128) S1152x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1152x128.size a ≤ S55296x128.size a
  hwx0_17 : ∀ i : grid0.Coords, EltTy.bits .f32 = 32 ∨ (Rect.block (s := S55296x128) S1152x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1152x128.size a ≤ S55296x128.size a
  hwx0_18 : ∀ i : grid0.Coords, EltTy.bits .f32 = 32 ∨ (Rect.block (s := S55296x128) S1152x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1152x128.size a ≤ S55296x128.size a
  hwx0_19 : ∀ i : grid0.Coords, EltTy.bits .f32 = 32 ∨ (Rect.block (s := S55296x128) S1152x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1152x128.size a ≤ S55296x128.size a
  hwx0_20 : ∀ i : grid0.Coords, EltTy.bits .f32 = 32 ∨ (Rect.block (s := S55296x128) S1152x128.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1152x128.size a ≤ S55296x128.size a
  hwx0_21 : ∀ i : grid0.Coords, EltTy.bits .f32 = 32 ∨ (Rect.block (s := S55296x128) S1152x128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1152x128.size a ≤ S55296x128.size a
  hwx0_22 : ∀ i : grid0.Coords, EltTy.bits .f32 = 32 ∨ (Rect.block (s := S55296x128) S1152x128.size (cc0_transform_22 i) (hinb0_22 i)).WholeWords (EltTy.packing .f32)

variable [Facts₀]

def gather_S7077888_S7077888x1_S7077888_n_0_n_n_0_1_1 : GatherDims S7077888 S7077888x1 S7077888 where
  offsetDims := []
  collapsedSliceDims := [0]
  operandBatchingDims := []
  startIndicesBatchingDims := []
  startIndexMap := [0]
  indexVectorDim := 1
  sliceSizes := ![1]
  wf := gather_S7077888_S7077888x1_S7077888_n_0_n_n_0_1_1_wf

abbrev win0_0 : Pipeline.Window sig grid0 :=
  Pipeline.Window.ofSpec (Memref.whole main_v86) S1152x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v87) S1152x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v88) S1152x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v89) S1152x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v90) S1152x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v91) S1152x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v92) S1152x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v93) S1152x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v94) S1152x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v95) S1152x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v96) S1152x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v97) S1152x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v98) S1152x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v99) S1152x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v100) S1152x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v101) S1152x128.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v102) S1152x128.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v103) S1152x128.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v104) S1152x128.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v105) S1152x128.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v106) S1152x128.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_v107_0) S1152x128.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v107_1) S1152x128.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S1 : Shape := ⟨1, ![1]⟩
abbrev S14155776 : Shape := ⟨1, ![14155776]⟩
abbrev S7077888 : Shape := ⟨1, ![7077888]⟩
abbrev S_ : Shape := ⟨0, ![]⟩
abbrev S7077888x1 : Shape := ⟨2, ![7077888, 1]⟩

abbrev nBuf : Space → Nat
  | .hbm => 165
  | .vmem => 0
  | .smem => 0
  | _ => 0

abbrev hbmTy0_0 (i : Nat) : BufTy := match i % 128 with
  | 0 => ⟨S1, .f32⟩
  | 1 => ⟨S14155776, .f32⟩
  | 2 => ⟨S7077888, .f32⟩
  | 3 => ⟨S7077888, .f32⟩
  | 4 => ⟨S7077888, .f32⟩
  | 5 => ⟨S7077888, .f32⟩
  | 6 => ⟨S7077888, .f32⟩
  | 7 => ⟨S7077888, .f32⟩
  | 8 => ⟨S7077888, .f32⟩
  | 9 => ⟨S7077888, .i32⟩
  | 10 => ⟨S7077888, .i32⟩
  | 11 => ⟨S7077888, .i32⟩
  | 12 => ⟨S7077888, .i32⟩
  | 13 => ⟨S7077888, .i32⟩
  | 14 => ⟨S7077888, .i32⟩
  | 15 => ⟨S7077888, .f32⟩
  | 16 => ⟨S7077888, .f32⟩
  | 17 => ⟨S_, .i32⟩
  | 18 => ⟨S7077888, .i32⟩
  | 19 => ⟨S7077888, .i1⟩
  | 20 => ⟨S_, .i32⟩
  | 21 => ⟨S7077888, .i32⟩
  | 22 => ⟨S7077888, .i32⟩
  | 23 => ⟨S7077888, .i32⟩
  | 24 => ⟨S7077888x1, .i32⟩
  | 25 => ⟨S7077888, .f32⟩
  | 26 => ⟨S_, .i32⟩
  | 27 => ⟨S7077888, .i32⟩
  | 28 => ⟨S7077888, .i1⟩
  | 29 => ⟨S_, .i32⟩
  | 30 => ⟨S7077888, .i32⟩
  | 31 => ⟨S7077888, .i32⟩
  | 32 => ⟨S7077888, .i32⟩
  | 33 => ⟨S7077888x1, .i32⟩
  | 34 => ⟨S7077888, .f32⟩
  | 35 => ⟨S7077888, .f32⟩
  | 36 => ⟨S_, .i32⟩
  | 37 => ⟨S7077888, .i32⟩
  | 38 => ⟨S7077888, .i1⟩
  | 39 => ⟨S_, .i32⟩
  | 40 => ⟨S7077888, .i32⟩
  | 41 => ⟨S7077888, .i32⟩
  | 42 => ⟨S7077888, .i32⟩
  | 43 => ⟨S7077888x1, .i32⟩
  | 44 => ⟨S7077888, .f32⟩
  | 45 => ⟨S7077888, .f32⟩
  | 46 => ⟨S_, .i32⟩
  | 47 => ⟨S7077888, .i32⟩
  | 48 => ⟨S7077888, .i1⟩
  | 49 => ⟨S_, .i32⟩
  | 50 => ⟨S7077888, .i32⟩
  | 51 => ⟨S7077888, .i32⟩
  | 52 => ⟨S7077888, .i32⟩
  | 53 => ⟨S7077888x1, .i32⟩
  | 54 => ⟨S7077888, .f32⟩
  | 55 => ⟨S7077888, .f32⟩
  | 56 => ⟨S_, .i32⟩
  | 57 => ⟨S7077888, .i32⟩
  | 58 => ⟨S7077888, .i1⟩
  | 59 => ⟨S_, .i32⟩
  | 60 => ⟨S7077888, .i32⟩
  | 61 => ⟨S7077888, .i32⟩
  | 62 => ⟨S7077888, .i32⟩
  | 63 => ⟨S7077888x1, .i32⟩
  | 64 => ⟨S7077888, .f32⟩
  | 65 => ⟨S_, .i32⟩
  | 66 => ⟨S7077888, .i32⟩
  | 67 => ⟨S7077888, .i1⟩
  | 68 => ⟨S_, .i32⟩
  | 69 => ⟨S7077888, .i32⟩
  | 70 => ⟨S7077888, .i32⟩
  | 71 => ⟨S7077888, .i32⟩
  | 72 => ⟨S7077888x1, .i32⟩
  | 73 => ⟨S7077888, .f32⟩
  | 74 => ⟨S7077888, .f32⟩
  | 75 => ⟨S7077888, .f32⟩
  | 76 => ⟨S7077888, .f32⟩
  | 77 => ⟨S7077888, .f32⟩
  | 78 => ⟨S_, .i32⟩
  | 79 => ⟨S7077888, .i32⟩
  | 80 => ⟨S7077888, .i1⟩
  | 81 => ⟨S_, .i32⟩
  | 82 => ⟨S7077888, .i32⟩
  | 83 => ⟨S7077888, .i32⟩
  | 84 => ⟨S7077888, .i32⟩
  | 85 => ⟨S7077888x1, .i32⟩
  | 86 => ⟨S7077888, .f32⟩
  | 87 => ⟨S_, .i32⟩
  | 88 => ⟨S7077888, .i32⟩
  | 89 => ⟨S7077888, .i1⟩
  | 90 => ⟨S_, .i32⟩
  | 91 => ⟨S7077888, .i32⟩
  | 92 => ⟨S7077888, .i32⟩
  | 93 => ⟨S7077888, .i32⟩
  | 94 => ⟨S7077888x1, .i32⟩
  | 95 => ⟨S7077888, .f32⟩
  | 96 => ⟨S7077888, .f32⟩
  | 97 => ⟨S_, .i32⟩
  | 98 => ⟨S7077888, .i32⟩
  | 99 => ⟨S7077888, .i1⟩
  | 100 => ⟨S_, .i32⟩
  | 101 => ⟨S7077888, .i32⟩
  | 102 => ⟨S7077888, .i32⟩
  | 103 => ⟨S7077888, .i32⟩
  | 104 => ⟨S7077888x1, .i32⟩
  | 105 => ⟨S7077888, .f32⟩
  | 106 => ⟨S7077888, .f32⟩
  | 107 => ⟨S_, .i32⟩
  | 108 => ⟨S7077888, .i32⟩
  | 109 => ⟨S7077888, .i1⟩
  | 110 => ⟨S_, .i32⟩
  | 111 => ⟨S7077888, .i32⟩
  | 112 => ⟨S7077888, .i32⟩
  | 113 => ⟨S7077888, .i32⟩
  | 114 => ⟨S7077888x1, .i32⟩
  | 115 => ⟨S7077888, .f32⟩
  | 116 => ⟨S7077888, .f32⟩
  | 117 => ⟨S_, .i32⟩
  | 118 => ⟨S7077888, .i32⟩
  | 119 => ⟨S7077888, .i1⟩
  | 120 => ⟨S_, .i32⟩
  | 121 => ⟨S7077888, .i32⟩
  | 122 => ⟨S7077888, .i32⟩
  | 123 => ⟨S7077888, .i32⟩
  | 124 => ⟨S7077888x1, .i32⟩
  | 125 => ⟨S7077888, .f32⟩
  | 126 => ⟨S_, .i32⟩
  | 127 => ⟨S7077888, .i32⟩
  | _ => ⟨S1, .f32⟩

abbrev hbmTy0_1 (i : Nat) : BufTy := match i % 128 with
  | 0 => ⟨S7077888, .i1⟩
  | 1 => ⟨S_, .i32⟩
  | 2 => ⟨S7077888, .i32⟩
  | 3 => ⟨S7077888, .i32⟩
  | 4 => ⟨S7077888, .i32⟩
  | 5 => ⟨S7077888x1, .i32⟩
  | 6 => ⟨S7077888, .f32⟩
  | 7 => ⟨S7077888, .f32⟩
  | 8 => ⟨S7077888, .f32⟩
  | 9 => ⟨S7077888, .f32⟩
  | 10 => ⟨S7077888, .f32⟩
  | 11 => ⟨S7077888, .f32⟩
  | 12 => ⟨S7077888, .f32⟩
  | 13 => ⟨S7077888, .f32⟩
  | 14 => ⟨S7077888, .f32⟩
  | 15 => ⟨S7077888, .f32⟩
  | 16 => ⟨S7077888, .f32⟩
  | 17 => ⟨S7077888, .f32⟩
  | 18 => ⟨S7077888, .f32⟩
  | 19 => ⟨S7077888, .f32⟩
  | 20 => ⟨S7077888, .f32⟩
  | 21 => ⟨S7077888, .f32⟩
  | 22 => ⟨S7077888, .f32⟩
  | 23 => ⟨S7077888, .f32⟩
  | 24 => ⟨S7077888, .f32⟩
  | 25 => ⟨S7077888, .f32⟩
  | 26 => ⟨S7077888, .f32⟩
  | 27 => ⟨S7077888, .f32⟩
  | 28 => ⟨S7077888, .f32⟩
  | 29 => ⟨S7077888, .f32⟩
  | 30 => ⟨S7077888, .f32⟩
  | 31 => ⟨S7077888, .f32⟩
  | 32 => ⟨S7077888, .f32⟩
  | 33 => ⟨S7077888, .f32⟩
  | 34 => ⟨S7077888, .f32⟩
  | 35 => ⟨S7077888, .f32⟩
  | 36 => ⟨S14155776, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_c_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_v59 : Ref sig .tc := ⟨.hbm, 89, rfl⟩
abbrev main_c_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_19 : Ref sig .tc := ⟨.hbm, 117, rfl⟩
abbrev main_v82 : Ref sig .tc := ⟨.hbm, 118, rfl⟩
abbrev main_v83 : Ref sig .tc := ⟨.hbm, 119, rfl⟩
abbrev main_c_20 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_21 : Ref sig .tc := ⟨.hbm, 126, rfl⟩
abbrev main_v89 : Ref sig .tc := ⟨.hbm, 127, rfl⟩
abbrev main_v90 : Ref sig .tc := ⟨.hbm, 128, rfl⟩
abbrev main_c_22 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩

abbrev nD : Nat := 1
abbrev τ : Topo := Topo.v7x

variable {F : FTy → Type} [FloatOps F]

class Facts₀ : Prop where
  slices_S14155776_S7077888_0 : S14155776.Slices ![0] S7077888
  slices_S14155776_S7077888_7077888 : S14155776.Slices ![7077888] S7077888
  bcast_S_S7077888 : S_.BroadcastsInDim S7077888 (![] : Fin 0 → Fin S7077888.rank)
  bcast_S7077888_S7077888x1_0 : S7077888.BroadcastsInDim S7077888x1 (![0] : Fin 1 → Fin S7077888x1.rank)
  concatenates_S7077888_S7077888_S14155776_d0 : Shape.Concatenates [S7077888, S7077888] S14155776 0
  gather_S7077888_S7077888x1_S7077888_n_0_n_n_0_1_1_wf : GatherDims.WF S7077888 S7077888x1 S7077888 [] [0] [] [0] [] 1 ![1]

variable [Facts₀]

def gather_S7077888_S7077888x1_S7077888_n_0_n_n_0_1_1 : GatherDims S7077888 S7077888x1 S7077888 where
  offsetDims := []
  collapsedSliceDims := [0]
  operandBatchingDims := []
  startIndicesBatchingDims := []
  startIndexMap := [0]
  indexVectorDim := 1
  sliceSizes := ![1]
  wf := gather_S7077888_S7077888x1_S7077888_n_0_n_n_0_1_1_wf

class Facts : Prop extends Facts₀ where

variable [Facts]
-- ==== Proof.Entry.lean ====
/-
  What the kernel's twenty-one input arrays hold when the region is entered.

  Before the region the program cuts the field `y` into its halves `x` and `p`, looks both up at the six
  neighbour tables (a negative table entry first moved up by the number of sites, then the look-up), and lays
  each of the resulting fourteen vectors, and each of the seven coefficient vectors, out as 55296 rows of 128.
  The fourteen vectors are, operation for operation, the ones the plain program computes first; they are named
  here by that program's stages, so that nothing of a look-up is ever opened: the two programs look up the same
  tables at the same places, whatever the tables hold.
-/
import proofs.«144047_j2723009266046_1_alg».proof.Proof.Gen.KernelIdeal.Frame
import proofs.«144047_j2723009266046_1_alg».proof.Proof.Gen.ReferenceIdeal.Read
import Idealize.ShloMosaic.Lib.StableHlo.Run

set_option maxRecDepth 16384

noncomputable section

namespace Cert.Relax

open Idealize.ShloMosaic Idealize.ShloMosaic.TcCoe Idealize.SL.Sem Idealize.ShloMosaic.StableHlo
open Cert.KernelIdeal Cert.KernelIdeal.Gen

variable {F : FTy → Type} [FloatOps F]

/-- A vector of all the sites laid out as 55296 rows of 128. -/
def rows (v : S7077888.Idx → F .f32) : S55296x128.Idx → F .f32 :=
  shapeCast S55296x128 v shapeCasts_S7077888_S55296x128

variable (m : (ℓ : Loc nD τ sig) → Buf (Elt F) ℓ)

/-- Window 0's array: the field's first half x, as rows of 128. -/
theorem entry0 (c : Dev nD) : (V m c main_v86 : S55296x128.Idx → F .f32) = rows (Cert.ReferenceIdeal.Read.val_main_v0 (F := F) (m ((c.tc : Thread nD τ).loc main_arg1))) := by
  show StableHlo.after hostOps0 (fun b => m (c, b)) (Proc.devRef .tc main_v86) = _
  after_results_simp
  rfl

/-- Window 1's array: the field's second half p, as rows of 128. -/
theorem entry1 (c : Dev nD) : (V m c main_v87 : S55296x128.Idx → F .f32) = rows (Cert.ReferenceIdeal.Read.val_main_v1 (F := F) (m ((c.tc : Thread nD τ).loc main_arg1))) := by
  show StableHlo.after hostOps0 (fun b => m (c, b)) (Proc.devRef .tc main_v87) = _
  after_results_simp
  rfl

/-- Window 2's array: x at the first neighbour along the first axis, as rows of 128. -/
theorem entry2 (c : Dev nD) : (V m c main_v88 : S55296x128.Idx → F .f32) = rows (Cert.ReferenceIdeal.Read.val_main_v8 (F := F) (m ((c.tc : Thread nD τ).loc main_arg1)) (m ((c.tc : Thread nD τ).loc main_arg9))) := by
  show StableHlo.after hostOps0 (fun b => m (c, b)) (Proc.devRef .tc main_v88) = _
  after_results_simp
  rfl

/-- Window 3's array: x at the second neighbour along the first axis, as rows of 128. -/
theorem entry3 (c : Dev nD) : (V m c main_v89 : S55296x128.Idx → F .f32) = rows (Cert.ReferenceIdeal.Read.val_main_v15 (F := F) (m ((c.tc : Thread nD τ).loc main_arg1)) (m ((c.tc : Thread nD τ).loc main_arg10))) := by
  show StableHlo.after hostOps0 (fun b => m (c, b)) (Proc.devRef .tc main_v89) = _
  after_results_simp
  rfl

/-- Window 4's array: x at the first neighbour along the second axis, as rows of 128. -/
theorem entry4 (c : Dev nD) : (V m c main_v90 : S55296x128.Idx → F .f32) = rows (Cert.ReferenceIdeal.Read.val_main_v23 (F := F) (m ((c.tc : Thread nD τ).loc main_arg1)) (m ((c.tc : Thread nD τ).loc main_arg11))) := by
  show StableHlo.after hostOps0 (fun b => m (c, b)) (Proc.devRef .tc main_v90) = _
  after_results_simp
  rfl

/-- Window 5's array: x at the second neighbour along the second axis, as rows of 128. -/
theorem entry5 (c : Dev nD) : (V m c main_v91 : S55296x128.Idx → F .f32) = rows (Cert.ReferenceIdeal.Read.val_main_v31 (F := F) (m ((c.tc : Thread nD τ).loc main_arg1)) (m ((c.tc : Thread nD τ).loc main_arg12))) := by
  show StableHlo.after hostOps0 (fun b => m (c, b)) (Proc.devRef .tc main_v91) = _
  after_results_simp
  rfl

/-- Window 6's array: x at the first neighbour along the third axis, as rows of 128. -/
theorem entry6 (c : Dev nD) : (V m c main_v92 : S55296x128.Idx → F .f32) = rows (Cert.ReferenceIdeal.Read.val_main_v39 (F := F) (m ((c.tc : Thread nD τ).loc main_arg1)) (m ((c.tc : Thread nD τ).loc main_arg13))) := by
  show StableHlo.after hostOps0 (fun b => m (c, b)) (Proc.devRef .tc main_v92) = _
  after_results_simp
  rfl

/-- Window 7's array: x at the second neighbour along the third axis, as rows of 128. -/
theorem entry7 (c : Dev nD) : (V m c main_v93 : S55296x128.Idx → F .f32) = rows (Cert.ReferenceIdeal.Read.val_main_v46 (F := F) (m ((c.tc : Thread nD τ).loc main_arg1)) (m ((c.tc : Thread nD τ).loc main_arg14))) := by
  show StableHlo.after hostOps0 (fun b => m (c, b)) (Proc.devRef .tc main_v93) = _
  after_results_simp
  rfl

/-- Window 8's array: p at the first neighbour along the first axis, as rows of 128. -/
theorem entry8 (c : Dev nD) : (V m c main_v94 : S55296x128.Idx → F .f32) = rows (Cert.ReferenceIdeal.Read.val_main_v57 (F := F) (m ((c.tc : Thread nD τ).loc main_arg1)) (m ((c.tc : Thread nD τ).loc main_arg9))) := by
  show StableHlo.after hostOps0 (fun b => m (c, b)) (Proc.devRef .tc main_v94) = _
  after_results_simp
  rfl

/-- Window 9's array: p at the second neighbour along the first axis, as rows of 128. -/
theorem entry9 (c : Dev nD) : (V m c main_v95 : S55296x128.Idx → F .f32) = rows (Cert.ReferenceIdeal.Read.val_main_v64 (F := F) (m ((c.tc : Thread nD τ).loc main_arg1)) (m ((c.tc : Thread nD τ).loc main_arg10))) := by
  show StableHlo.after hostOps0 (fun b => m (c, b)) (Proc.devRef .tc main_v95) = _
  after_results_simp
  rfl

/-- Window 10's array: p at the first neighbour along the second axis, as rows of 128. -/
theorem entry10 (c : Dev nD) : (V m c main_v96 : S55296x128.Idx → F .f32) = rows (Cert.ReferenceIdeal.Read.val_main_v72 (F := F) (m ((c.tc : Thread nD τ).loc main_arg1)) (m ((c.tc : Thread nD τ).loc main_arg11))) := by
  show StableHlo.after hostOps0 (fun b => m (c, b)) (Proc.devRef .tc main_v96) = _
  after_results_simp
  rfl

/-- Window 11's array: p at the second neighbour along the second axis, as rows of 128. -/
theorem entry11 (c : Dev nD) : (V m c main_v97 : S55296x128.Idx → F .f32) = rows (Cert.ReferenceIdeal.Read.val_main_v80 (F := F) (m ((c.tc : Thread nD τ).loc main_arg1)) (m ((c.tc : Thread nD τ).loc main_arg12))) := by
  show StableHlo.after hostOps0 (fun b => m (c, b)) (Proc.devRef .tc main_v97) = _
  after_results_simp
  rfl

/-- Window 12's array: p at the first neighbour along the third axis, as rows of 128. -/
theorem entry12 (c : Dev nD) : (V m c main_v98 : S55296x128.Idx → F .f32) = rows (Cert.ReferenceIdeal.Read.val_main_v88 (F := F) (m ((c.tc : Thread nD τ).loc main_arg1)) (m ((c.tc : Thread nD τ).loc main_arg13))) := by
  show StableHlo.after hostOps0 (fun b => m (c, b)) (Proc.devRef .tc main_v98) = _
  after_results_simp
  rfl

/-- Window 13's array: p at the second neighbour along the third axis, as rows of 128. -/
theorem entry13 (c : Dev nD) : (V m c main_v99 : S55296x128.Idx → F .f32) = rows (Cert.ReferenceIdeal.Read.val_main_v95 (F := F) (m ((c.tc : Thread nD τ).loc main_arg1)) (m ((c.tc : Thread nD τ).loc main_arg14))) := by
  show StableHlo.after hostOps0 (fun b => m (c, b)) (Proc.devRef .tc main_v99) = _
  after_results_simp
  rfl

/-- Window 14's array: the coupling J, as rows of 128. -/
theorem entry14 (c : Dev nD) : (V m c main_v100 : S55296x128.Idx → F .f32) = rows (m ((c.tc : Thread nD τ).loc main_arg2)) := by
  show StableHlo.after hostOps0 (fun b => m (c, b)) (Proc.devRef .tc main_v100) = _
  after_results_simp
  rfl

/-- Window 15's array: the anisotropy, as rows of 128. -/
theorem entry15 (c : Dev nD) : (V m c main_v101 : S55296x128.Idx → F .f32) = rows (m ((c.tc : Thread nD τ).loc main_arg3)) := by
  show StableHlo.after hostOps0 (fun b => m (c, b)) (Proc.devRef .tc main_v101) = _
  after_results_simp
  rfl

/-- Window 16's array: the damping, as rows of 128. -/
theorem entry16 (c : Dev nD) : (V m c main_v102 : S55296x128.Idx → F .f32) = rows (m ((c.tc : Thread nD τ).loc main_arg4)) := by
  show StableHlo.after hostOps0 (fun b => m (c, b)) (Proc.devRef .tc main_v102) = _
  after_results_simp
  rfl

/-- Window 17's array: the first disorder field, as rows of 128. -/
theorem entry17 (c : Dev nD) : (V m c main_v103 : S55296x128.Idx → F .f32) = rows (m ((c.tc : Thread nD τ).loc main_arg5)) := by
  show StableHlo.after hostOps0 (fun b => m (c, b)) (Proc.devRef .tc main_v103) = _
  after_results_simp
  rfl

/-- Window 18's array: the second disorder field, as rows of 128. -/
theorem entry18 (c : Dev nD) : (V m c main_v104 : S55296x128.Idx → F .f32) = rows (m ((c.tc : Thread nD τ).loc main_arg6)) := by
  show StableHlo.after hostOps0 (fun b => m (c, b)) (Proc.devRef .tc main_v104) = _
  after_results_simp
  rfl

/-- Window 19's array: the nonlinearity, as rows of 128. -/
theorem entry19 (c : Dev nD) : (V m c main_v105 : S55296x128.Idx → F .f32) = rows (m ((c.tc : Thread nD τ).loc main_arg7)) := by
  show StableHlo.after hostOps0 (fun b => m (c, b)) (Proc.devRef .tc main_v105) = _
  after_results_simp
  rfl

/-- Window 20's array: the on-site disorder, as rows of 128. -/
theorem entry20 (c : Dev nD) : (V m c main_v106 : S55296x128.Idx → F .f32) = rows (m ((c.tc : Thread nD τ).loc main_arg8)) := by
  show StableHlo.after hostOps0 (fun b => m (c, b)) (Proc.devRef .tc main_v106) = _
  after_results_simp
  rfl

end Cert.Relax

end
-- ==== Proof.Site.lean ====
/-
  The right-hand side of the relaxation equations at ONE lattice site.

  A site carries the two field components (x, p), each component at the site's six lattice neighbours
  (two along each axis), and seven coefficients. With

      xL = J · (x₁ + x₂ + y₁ + y₂ + κ · (z₁ + z₂))          (the coupling to the neighbours' x)
      yL = J · (p₁ + p₂ + py₁ + py₂ + κ · (pz₁ + pz₂))      (the same for p)
      r² = x·x + p·p ,   cross = xL·p − yL·x

  the two time derivatives are

      dx = γ·p·cross + e·p − yL + h_y + β·r²·p
      dp = (−γ)·x·cross − e·x + xL − h_x − β·r²·x

  each written as the tree of binary operations below (sums and products associate to the left). The
  factor −γ enters as a parameter `ng`: one program forms it as `0 − γ`, the other as the negation
  of γ; on the extended reals these are one number (`zero_sub_eq_neg`), with no finiteness asked.
-/
import Idealize.ShloMosaic.PureOps.Ideal
import Idealize.ShloMosaic.PureOps.Ideal.Laws

noncomputable section

namespace Cert.Relax

open Idealize.ShloMosaic

/-- One lattice site: the field there, the field at its six neighbours, and the site's coefficients. -/
structure Site (F : FTy → Type) where
  x : F .f32
  p : F .f32
  x1 : F .f32
  x2 : F .f32
  y1 : F .f32
  y2 : F .f32
  z1 : F .f32
  z2 : F .f32
  p1 : F .f32
  p2 : F .f32
  py1 : F .f32
  py2 : F .f32
  pz1 : F .f32
  pz2 : F .f32
  J : F .f32
  an : F .f32
  g : F .f32
  hx : F .f32
  hy : F .f32
  b : F .f32
  e : F .f32

variable {F : FTy → Type} [FloatOps F]

/-- `J · (a₁ + a₂ + b₁ + b₂ + κ · (c₁ + c₂))`: four in-plane neighbours and the two neighbours along the third
    axis, the latter weighted by the anisotropy κ. -/
def coupling (J an a1 a2 b1 b2 c1 c2 : F .f32) : F .f32 :=
  FloatOps.mulf J (FloatOps.addf (FloatOps.addf (FloatOps.addf (FloatOps.addf a1 a2) b1) b2) (FloatOps.mulf an (FloatOps.addf c1 c2)))

namespace Site

/-- The coupling of the site to its neighbours' x. -/
def xL (s : Site F) : F .f32 := coupling s.J s.an s.x1 s.x2 s.y1 s.y2 s.z1 s.z2
/-- The coupling of the site to its neighbours' p. -/
def yL (s : Site F) : F .f32 := coupling s.J s.an s.p1 s.p2 s.py1 s.py2 s.pz1 s.pz2
/-- The squared modulus `x·x + p·p`. -/
def r2 (s : Site F) : F .f32 := FloatOps.addf (FloatOps.mulf s.x s.x) (FloatOps.mulf s.p s.p)
/-- `xL·p − yL·x`. -/
def cross (s : Site F) : F .f32 := FloatOps.subf (FloatOps.mulf s.xL s.p) (FloatOps.mulf s.yL s.x)

/-- `dx = γ·p·cross + e·p − yL + h_y + β·r²·p`. -/
def dx (s : Site F) : F .f32 :=
  FloatOps.addf (FloatOps.addf (FloatOps.subf (FloatOps.addf (FloatOps.mulf (FloatOps.mulf s.g s.p) s.cross) (FloatOps.mulf s.e s.p)) s.yL) s.hy)
    (FloatOps.mulf (FloatOps.mulf s.b s.r2) s.p)

/-- `dp = ng·x·cross − e·x + xL − h_x − β·r²·x`, for `ng` the negated damping γ however it was formed. -/
def dpWith (ng : F .f32) (s : Site F) : F .f32 :=
  FloatOps.subf (FloatOps.subf (FloatOps.addf (FloatOps.subf (FloatOps.mulf (FloatOps.mulf ng s.x) s.cross) (FloatOps.mulf s.e s.x)) s.xL) s.hx)
    (FloatOps.mulf (FloatOps.mulf s.b s.r2) s.x)

/-- `dp` with the negated damping formed as `0 − γ`. -/
def dpSub (s : Site F) : F .f32 := dpWith (FloatOps.subf (Scalar.ofBits .f32 0x00000000#32) s.g) s
/-- `dp` with the negated damping formed as the negation of γ. -/
def dpNeg (s : Site F) : F .f32 := dpWith (FloatOps.hostNegf s.g) s

end Site

/-- On the extended reals `0 − g = −g` for every `g`, the infinities included: subtraction is the sum with the
    negation, and zero is neutral for the sum. -/
theorem zero_sub_eq_neg (g : Ideal .f32) :
    FloatOps.subf (F := Ideal) (Scalar.ofBits .f32 0x00000000#32) g = FloatOps.hostNegf g := by
  show (Ideal.ofBits .f32 0x00000000#32 : EReal) - g = -g
  rw [Ideal.ofBits_zero_f32, zero_sub]

/-- The two spellings of `dp` are one function of the site on the extended reals. -/
theorem Site.dpSub_eq_dpNeg (s : Site Ideal) : s.dpSub = s.dpNeg := by
  unfold Site.dpSub Site.dpNeg
  rw [zero_sub_eq_neg]

end Cert.Relax

end
-- ==== Proof.KernelSite.lean ====
/-
  What the kernel's body computes at one position of a block.

  The body loads twenty-one blocks of 1152 × 128 numbers — the two field components, each component at the six
  neighbours, and seven coefficient blocks, in that order —, combines them position by position, and stores
  two blocks. Every operation of the body acts on each position separately (the shape casts in it are casts to
  the same shape), so at a position `y` the two stored values are the two derivatives `dx`, `dp` of the SITE
  whose twenty-one numbers are the loaded blocks' entries at `y`; the kernel forms the negated damping as `0 − γ`.
-/
import proofs.«144047_j2723009266046_1_alg».proof.Proof.Gen.KernelIdeal.Skeleton
import proofs.«144047_j2723009266046_1_alg».proof.Proof.Site
import Idealize.ShloMosaic.Lib.Pipeline.Value

noncomputable section

namespace Cert.Relax

open Idealize.ShloMosaic Cert.KernelIdeal Cert.KernelIdeal.Gen

variable {F : FTy → Type} [FloatOps F]

/-- The site read off twenty-one blocks at one position. -/
def blockSite (x0 x1 x2 x3 x4 x5 x6 x7 x8 x9 x10 x11 x12 x13 x14 x15 x16 x17 x18 x19 x20 : Vec F S1152x128 .f32) (y : S1152x128.Idx) : Site F :=
  ⟨x0 y, x1 y, x2 y, x3 y, x4 y, x5 y, x6 y, x7 y, x8 y, x9 y, x10 y, x11 y, x12 y, x13 y, x14 y, x15 y, x16 y, x17 y, x18 y, x19 y, x20 y⟩

/-- The first stored block at a position is `dx` of the site there. -/
theorem dx_payload (x0 x1 x2 x3 x4 x5 x6 x7 x8 x9 x10 x11 x12 x13 x14 x15 x16 x17 x18 x19 x20 : Vec F S1152x128 .f32) (y : S1152x128.Idx) :
    k0_pay26 (k0_pay2 x0) (k0_pay3 x1) (k0_pay4 x2) (k0_pay5 x3) (k0_pay6 x4) (k0_pay7 x5) (k0_pay8 x6) (k0_pay9 x7) (k0_pay10 x8) (k0_pay11 x9) (k0_pay12 x10) (k0_pay13 x11) (k0_pay14 x12) (k0_pay15 x13) x14 x15 x16 x18 x19 x20 y
      = (blockSite x0 x1 x2 x3 x4 x5 x6 x7 x8 x9 x10 x11 x12 x13 x14 x15 x16 x17 x18 x19 x20 y).dx := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]
  rfl

/-- The second stored block at a position is `dp` of the site there, the negated damping formed as `0 − γ`. -/
theorem dp_payload (x0 x1 x2 x3 x4 x5 x6 x7 x8 x9 x10 x11 x12 x13 x14 x15 x16 x17 x18 x19 x20 : Vec F S1152x128 .f32) (y : S1152x128.Idx) :
    k0_pay1 (k0_pay2 x0) (k0_pay19 x17) (k0_pay20 x19) (k0_pay22 (k0_pay4 x2) (k0_pay5 x3) (k0_pay6 x4) (k0_pay7 x5) (k0_pay8 x6) (k0_pay9 x7) x14 x15) (k0_pay24 (k0_pay2 x0) (k0_pay3 x1)) (k0_pay27 (k0_pay2 x0) (k0_pay3 x1) (k0_pay4 x2) (k0_pay5 x3) (k0_pay6 x4) (k0_pay7 x5) (k0_pay8 x6) (k0_pay9 x7) (k0_pay10 x8) (k0_pay11 x9) (k0_pay12 x10) (k0_pay13 x11) (k0_pay14 x12) (k0_pay15 x13) x14 x15 x16) (k0_pay28 (k0_pay2 x0) x20) y
      = (blockSite x0 x1 x2 x3 x4 x5 x6 x7 x8 x9 x10 x11 x12 x13 x14 x15 x16 x17 x18 x19 x20 y).dpSub := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]
  rfl

end Cert.Relax

end
-- ==== Proof.Blocks.lean ====
/-
  From blocks to arrays: what the two output arrays hold after the run.

  The grid has 48 points. At point `t` every window — the twenty-one inputs and the two outputs alike — stages
  the 1152 rows `1152·t … 1152·t + 1151` of its 55296 × 128 array, all 128 lanes. So the twenty-one numbers
  the body combines at position `y` of its blocks are the twenty-one arrays' entries at ONE place of the array,
  the place that position has in the output's block; what a point writes back is therefore a block of one
  whole-array function, "the derivative of the site at each place", and since the 48 blocks tile the array
  (row `r` lies in block `r / 1152`) the array ends holding that function everywhere.
-/
import proofs.«144047_j2723009266046_1_alg».proof.Proof.Gen.KernelIdeal.Frame
import proofs.«144047_j2723009266046_1_alg».proof.Proof.KernelSite
import Idealize.ShloMosaic.Lib.Pipeline.Value

set_option maxRecDepth 16384

noncomputable section

namespace Cert.Relax

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- The site at a place of the 55296 × 128 layout, read off the twenty-one arrays as the region finds them. -/
def entrySite (c : Dev nD) (j : S55296x128.Idx) : Site F :=
  ⟨V m c main_v86 j, V m c main_v87 j, V m c main_v88 j, V m c main_v89 j, V m c main_v90 j, V m c main_v91 j, V m c main_v92 j, V m c main_v93 j, V m c main_v94 j, V m c main_v95 j, V m c main_v96 j, V m c main_v97 j, V m c main_v98 j, V m c main_v99 j, V m c main_v100 j, V m c main_v101 j, V m c main_v102 j, V m c main_v103 j, V m c main_v104 j, V m c main_v105 j, V m c main_v106 j⟩

/-- The body's rectangles start at row 0, lane 0. -/
theorem zero_offsets : (![0, 0] : Fin 2 → Nat) = fun _ => 0 := funext fun a => by fin_cases a <;> rfl

/-! Each input window's block at point `t`, read at position `y`, is the window's array read at the place that
    position has in the FIRST output's block (every window's block sits at the same rows). The fact is about
    where a block sits, not about what the array holds: it is stated for arbitrary contents and only then read
    at the region-entry array. -/

theorem block_read0 (c : Dev nD) (t : Fin cfg0.N) (y : S1152x128.Idx) :
    iblk m c 0 t y = V m c main_v86 (((cfg0.win 21).blk t).view.emb y) :=
  (show ∀ A : Buf (Elt F) ((c.tc : Thread nD τ).loc main_v86), ((cfg0.win 0).blk t).view.read (Elt F) A y = A (((cfg0.win 21).blk t).view.emb y)
    from fun _ => rfl) (V m c main_v86)
theorem block_read1 (c : Dev nD) (t : Fin cfg0.N) (y : S1152x128.Idx) :
    iblk m c 1 t y = V m c main_v87 (((cfg0.win 21).blk t).view.emb y) :=
  (show ∀ A : Buf (Elt F) ((c.tc : Thread nD τ).loc main_v87), ((cfg0.win 1).blk t).view.read (Elt F) A y = A (((cfg0.win 21).blk t).view.emb y)
    from fun _ => rfl) (V m c main_v87)
theorem block_read2 (c : Dev nD) (t : Fin cfg0.N) (y : S1152x128.Idx) :
    iblk m c 2 t y = V m c main_v88 (((cfg0.win 21).blk t).view.emb y) :=
  (show ∀ A : Buf (Elt F) ((c.tc : Thread nD τ).loc main_v88), ((cfg0.win 2).blk t).view.read (Elt F) A y = A (((cfg0.win 21).blk t).view.emb y)
    from fun _ => rfl) (V m c main_v88)
theorem block_read3 (c : Dev nD) (t : Fin cfg0.N) (y : S1152x128.Idx) :
    iblk m c 3 t y = V m c main_v89 (((cfg0.win 21).blk t).view.emb y) :=
  (show ∀ A : Buf (Elt F) ((c.tc : Thread nD τ).loc main_v89), ((cfg0.win 3).blk t).view.read (Elt F) A y = A (((cfg0.win 21).blk t).view.emb y)
    from fun _ => rfl) (V m c main_v89)
theorem block_read4 (c : Dev nD) (t : Fin cfg0.N) (y : S1152x128.Idx) :
    iblk m c 4 t y = V m c main_v90 (((cfg0.win 21).blk t).view.emb y) :=
  (show ∀ A : Buf (Elt F) ((c.tc : Thread nD τ).loc main_v90), ((cfg0.win 4).blk t).view.read (Elt F) A y = A (((cfg0.win 21).blk t).view.emb y)
    from fun _ => rfl) (V m c main_v90)
theorem block_read5 (c : Dev nD) (t : Fin cfg0.N) (y : S1152x128.Idx) :
    iblk m c 5 t y = V m c main_v91 (((cfg0.win 21).blk t).view.emb y) :=
  (show ∀ A : Buf (Elt F) ((c.tc : Thread nD τ).loc main_v91), ((cfg0.win 5).blk t).view.read (Elt F) A y = A (((cfg0.win 21).blk t).view.emb y)
    from fun _ => rfl) (V m c main_v91)
theorem block_read6 (c : Dev nD) (t : Fin cfg0.N) (y : S1152x128.Idx) :
    iblk m c 6 t y = V m c main_v92 (((cfg0.win 21).blk t).view.emb y) :=
  (show ∀ A : Buf (Elt F) ((c.tc : Thread nD τ).loc main_v92), ((cfg0.win 6).blk t).view.read (Elt F) A y = A (((cfg0.win 21).blk t).view.emb y)
    from fun _ => rfl) (V m c main_v92)
theorem block_read7 (c : Dev nD) (t : Fin cfg0.N) (y : S1152x128.Idx) :
    iblk m c 7 t y = V m c main_v93 (((cfg0.win 21).blk t).view.emb y) :=
  (show ∀ A : Buf (Elt F) ((c.tc : Thread nD τ).loc main_v93), ((cfg0.win 7).blk t).view.read (Elt F) A y = A (((cfg0.win 21).blk t).view.emb y)
    from fun _ => rfl) (V m c main_v93)
theorem block_read8 (c : Dev nD) (t : Fin cfg0.N) (y : S1152x128.Idx) :
    iblk m c 8 t y = V m c main_v94 (((cfg0.win 21).blk t).view.emb y) :=
  (show ∀ A : Buf (Elt F) ((c.tc : Thread nD τ).loc main_v94), ((cfg0.win 8).blk t).view.read (Elt F) A y = A (((cfg0.win 21).blk t).view.emb y)
    from fun _ => rfl) (V m c main_v94)
theorem block_read9 (c : Dev nD) (t : Fin cfg0.N) (y : S1152x128.Idx) :
    iblk m c 9 t y = V m c main_v95 (((cfg0.win 21).blk t).view.emb y) :=
  (show ∀ A : Buf (Elt F) ((c.tc : Thread nD τ).loc main_v95), ((cfg0.win 9).blk t).view.read (Elt F) A y = A (((cfg0.win 21).blk t).view.emb y)
    from fun _ => rfl) (V m c main_v95)
theorem block_read10 (c : Dev nD) (t : Fin cfg0.N) (y : S1152x128.Idx) :
    iblk m c 10 t y = V m c main_v96 (((cfg0.win 21).blk t).view.emb y) :=
  (show ∀ A : Buf (Elt F) ((c.tc : Thread nD τ).loc main_v96), ((cfg0.win 10).blk t).view.read (Elt F) A y = A (((cfg0.win 21).blk t).view.emb y)
    from fun _ => rfl) (V m c main_v96)
theorem block_read11 (c : Dev nD) (t : Fin cfg0.N) (y : S1152x128.Idx) :
    iblk m c 11 t y = V m c main_v97 (((cfg0.win 21).blk t).view.emb y) :=
  (show ∀ A : Buf (Elt F) ((c.tc : Thread nD τ).loc main_v97), ((cfg0.win 11).blk t).view.read (Elt F) A y = A (((cfg0.win 21).blk t).view.emb y)
    from fun _ => rfl) (V m c main_v97)
theorem block_read12 (c : Dev nD) (t : Fin cfg0.N) (y : S1152x128.Idx) :
    iblk m c 12 t y = V m c main_v98 (((cfg0.win 21).blk t).view.emb y) :=
  (show ∀ A : Buf (Elt F) ((c.tc : Thread nD τ).loc main_v98), ((cfg0.win 12).blk t).view.read (Elt F) A y = A (((cfg0.win 21).blk t).view.emb y)
    from fun _ => rfl) (V m c main_v98)
theorem block_read13 (c : Dev nD) (t : Fin cfg0.N) (y : S1152x128.Idx) :
    iblk m c 13 t y = V m c main_v99 (((cfg0.win 21).blk t).view.emb y) :=
  (show ∀ A : Buf (Elt F) ((c.tc : Thread nD τ).loc main_v99), ((cfg0.win 13).blk t).view.read (Elt F) A y = A (((cfg0.win 21).blk t).view.emb y)
    from fun _ => rfl) (V m c main_v99)
theorem block_read14 (c : Dev nD) (t : Fin cfg0.N) (y : S1152x128.Idx) :
    iblk m c 14 t y = V m c main_v100 (((cfg0.win 21).blk t).view.emb y) :=
  (show ∀ A : Buf (Elt F) ((c.tc : Thread nD τ).loc main_v100), ((cfg0.win 14).blk t).view.read (Elt F) A y = A (((cfg0.win 21).blk t).view.emb y)
    from fun _ => rfl) (V m c main_v100)
theorem block_read15 (c : Dev nD) (t : Fin cfg0.N) (y : S1152x128.Idx) :
    iblk m c 15 t y = V m c main_v101 (((cfg0.win 21).blk t).view.emb y) :=
  (show ∀ A : Buf (Elt F) ((c.tc : Thread nD τ).loc main_v101), ((cfg0.win 15).blk t).view.read (Elt F) A y = A (((cfg0.win 21).blk t).view.emb y)
    from fun _ => rfl) (V m c main_v101)
theorem block_read16 (c : Dev nD) (t : Fin cfg0.N) (y : S1152x128.Idx) :
    iblk m c 16 t y = V m c main_v102 (((cfg0.win 21).blk t).view.emb y) :=
  (show ∀ A : Buf (Elt F) ((c.tc : Thread nD τ).loc main_v102), ((cfg0.win 16).blk t).view.read (Elt F) A y = A (((cfg0.win 21).blk t).view.emb y)
    from fun _ => rfl) (V m c main_v102)
theorem block_read17 (c : Dev nD) (t : Fin cfg0.N) (y : S1152x128.Idx) :
    iblk m c 17 t y = V m c main_v103 (((cfg0.win 21).blk t).view.emb y) :=
  (show ∀ A : Buf (Elt F) ((c.tc : Thread nD τ).loc main_v103), ((cfg0.win 17).blk t).view.read (Elt F) A y = A (((cfg0.win 21).blk t).view.emb y)
    from fun _ => rfl) (V m c main_v103)
theorem block_read18 (c : Dev nD) (t : Fin cfg0.N) (y : S1152x128.Idx) :
    iblk m c 18 t y = V m c main_v104 (((cfg0.win 21).blk t).view.emb y) :=
  (show ∀ A : Buf (Elt F) ((c.tc : Thread nD τ).loc main_v104), ((cfg0.win 18).blk t).view.read (Elt F) A y = A (((cfg0.win 21).blk t).view.emb y)
    from fun _ => rfl) (V m c main_v104)
theorem block_read19 (c : Dev nD) (t : Fin cfg0.N) (y : S1152x128.Idx) :
    iblk m c 19 t y = V m c main_v105 (((cfg0.win 21).blk t).view.emb y) :=
  (show ∀ A : Buf (Elt F) ((c.tc : Thread nD τ).loc main_v105), ((cfg0.win 19).blk t).view.read (Elt F) A y = A (((cfg0.win 21).blk t).view.emb y)
    from fun _ => rfl) (V m c main_v105)
theorem block_read20 (c : Dev nD) (t : Fin cfg0.N) (y : S1152x128.Idx) :
    iblk m c 20 t y = V m c main_v106 (((cfg0.win 21).blk t).view.emb y) :=
  (show ∀ A : Buf (Elt F) ((c.tc : Thread nD τ).loc main_v106), ((cfg0.win 20).blk t).view.read (Elt F) A y = A (((cfg0.win 21).blk t).view.emb y)
    from fun _ => rfl) (V m c main_v106)

/-- The twenty-one input blocks at point `t`, read at position `y`, are the twenty-one arrays read at the place
    that position has in the first output's block. -/
theorem blockSite_at (c : Dev nD) (t : Fin cfg0.N) (y : S1152x128.Idx) :
    blockSite (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = entrySite m c (((cfg0.win 21).blk t).view.emb y) := by
  unfold blockSite
  rw [block_read0 m c t y, block_read1 m c t y, block_read2 m c t y, block_read3 m c t y, block_read4 m c t y, block_read5 m c t y, block_read6 m c t y, block_read7 m c t y, block_read8 m c t y, block_read9 m c t y, block_read10 m c t y, block_read11 m c t y, block_read12 m c t y, block_read13 m c t y, block_read14 m c t y, block_read15 m c t y, block_read16 m c t y, block_read17 m c t y, block_read18 m c t y, block_read19 m c t y, block_read20 m c t y]
  rfl

/-- The same, at the place the position has in the SECOND output's block. -/
theorem blockSite_at' (c : Dev nD) (t : Fin cfg0.N) (y : S1152x128.Idx) :
    blockSite (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = entrySite m c (((cfg0.win 22).blk t).view.emb y) :=
  (blockSite_at m c t y).trans (congrArg (entrySite m c) (show ((cfg0.win 21).blk t).view.emb y = ((cfg0.win 22).blk t).view.emb y from rfl))

/-- The printed index maps of the two outputs, decided over the grid: point `t` has block row `t`, block column 0. -/
theorem block_index : ∀ t : Fin cfg0.N, win0_21.index t (0 : Fin 2) = t.val ∧ win0_21.index t (1 : Fin 2) = 0
    ∧ win0_22.index t (0 : Fin 2) = t.val ∧ win0_22.index t (1 : Fin 2) = 0 :=
  (by decide +kernel : ∀ t : Fin grid0.N, _)

/-- What point `t` writes back through window 21 is block `t` of the array that holds `dx` of the site at every place. -/
theorem flushed_dx (c : Dev nD) (t : Fin cfg0.N) :
    (dats m 0 c).flushed 21 t = ((cfg0.win 21).blk t).view.read (Elt F) (fun j => (entrySite m c j).dx) := by
  show (cfg0.win 21).cut (grid0.coords t) ((dats m 0 c).after 21 t) = _
  rw [after0_21]
  unfold out0_21
  rw [View.canon_unit_zero zero_offsets]
  simp only [View.ld_unit_zero (S := S1152x128) zero_offsets]
  funext y
  refine (dx_payload (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y).trans ?_
  exact congrArg Site.dx (blockSite_at m c t y)

/-- What point `t` writes back through window 22 is block `t` of the array that holds `dpSub` of the site at every place. -/
theorem flushed_dp (c : Dev nD) (t : Fin cfg0.N) :
    (dats m 0 c).flushed 22 t = ((cfg0.win 22).blk t).view.read (Elt F) (fun j => (entrySite m c j).dpSub) := by
  show (cfg0.win 22).cut (grid0.coords t) ((dats m 0 c).after 22 t) = _
  rw [after0_22]
  unfold out0_22
  rw [View.canon_unit_zero zero_offsets]
  simp only [View.ld_unit_zero (S := S1152x128) zero_offsets]
  funext y
  refine (dp_payload (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y).trans ?_
  exact congrArg Site.dpSub (blockSite_at' m c t y)

/-- A place of the array is in point `t`'s block of window 21 iff its row is one of the block's 1152 rows. -/
theorem mem_block_dx (t : Fin cfg0.N) (i : S55296x128.Idx) :
    i ∈ ((cfg0.win 21).blk t).view.set ↔ ∀ a : Fin 2, win0_21.index t a * S1152x128.size a ≤ (i a).val ∧ (i a).val < win0_21.index t a * S1152x128.size a + S1152x128.size a := by
  show i ∈ ((View.whole main_v107_0).slice (win0_21.rect t)).set ↔ _
  rw [View.set_slice_whole, Rect.mem_set_unit]
  exact Iff.rfl

/-- Every place is in the block of the point numbered by its row divided by 1152: the 48 blocks tile the array. -/
theorem cover_dx (i : S55296x128.Idx) :
    ∃ t : Fin cfg0.N, (cfg0.win 21).flush t = true ∧ i ∈ ((cfg0.win 21).blk t).view.set := by
  have hi0 : (i 0).val < 55296 := (i 0).isLt
  have hi1 : (i 1).val < 128 := (i 1).isLt
  have hN : cfg0.N = 48 := N_0
  have hlt : (i 0).val / 1152 < cfg0.N := by rw [hN]; omega
  obtain ⟨e0, e1, e2, e3⟩ := block_index ⟨(i 0).val / 1152, hlt⟩
  have e0' : win0_21.index ⟨(i 0).val / 1152, hlt⟩ (0 : Fin 2) = (i 0).val / 1152 := e0
  have e2' : win0_22.index ⟨(i 0).val / 1152, hlt⟩ (0 : Fin 2) = (i 0).val / 1152 := e2
  refine ⟨⟨(i 0).val / 1152, hlt⟩, flush0_21 _, ?_⟩
  rw [mem_block_dx]
  intro a
  match a with
  | ⟨0, _⟩ => show win0_21.index ⟨(i 0).val / 1152, hlt⟩ (0 : Fin 2) * 1152 ≤ (i 0).val ∧ (i 0).val < win0_21.index ⟨(i 0).val / 1152, hlt⟩ (0 : Fin 2) * 1152 + 1152; omega
  | ⟨1, _⟩ => show win0_21.index ⟨(i 0).val / 1152, hlt⟩ (1 : Fin 2) * 128 ≤ (i 1).val ∧ (i 1).val < win0_21.index ⟨(i 0).val / 1152, hlt⟩ (1 : Fin 2) * 128 + 128; omega

/-- THE ARRAY after the run holds, at every place, `dx` of the site there. -/
theorem array_dx (c : Dev nD) : (dats m 0 c).arrAt 21 cfg0.N = fun j => (entrySite m c j).dx :=
  (dats m 0 c).arrAt_eq_of_cover 21 _ (fun t _ => flushed_dx m c t) cover_dx

/-- A place of the array is in point `t`'s block of window 22 iff its row is one of the block's 1152 rows. -/
theorem mem_block_dp (t : Fin cfg0.N) (i : S55296x128.Idx) :
    i ∈ ((cfg0.win 22).blk t).view.set ↔ ∀ a : Fin 2, win0_22.index t a * S1152x128.size a ≤ (i a).val ∧ (i a).val < win0_22.index t a * S1152x128.size a + S1152x128.size a := by
  show i ∈ ((View.whole main_v107_1).slice (win0_22.rect t)).set ↔ _
  rw [View.set_slice_whole, Rect.mem_set_unit]
  exact Iff.rfl

/-- Every place is in the block of the point numbered by its row divided by 1152: the 48 blocks tile the array. -/
theorem cover_dp (i : S55296x128.Idx) :
    ∃ t : Fin cfg0.N, (cfg0.win 22).flush t = true ∧ i ∈ ((cfg0.win 22).blk t).view.set := by
  have hi0 : (i 0).val < 55296 := (i 0).isLt
  have hi1 : (i 1).val < 128 := (i 1).isLt
  have hN : cfg0.N = 48 := N_0
  have hlt : (i 0).val / 1152 < cfg0.N := by rw [hN]; omega
  obtain ⟨e0, e1, e2, e3⟩ := block_index ⟨(i 0).val / 1152, hlt⟩
  have e0' : win0_21.index ⟨(i 0).val / 1152, hlt⟩ (0 : Fin 2) = (i 0).val / 1152 := e0
  have e2' : win0_22.index ⟨(i 0).val / 1152, hlt⟩ (0 : Fin 2) = (i 0).val / 1152 := e2
  refine ⟨⟨(i 0).val / 1152, hlt⟩, flush0_22 _, ?_⟩
  rw [mem_block_dp]
  intro a
  match a with
  | ⟨0, _⟩ => show win0_22.index ⟨(i 0).val / 1152, hlt⟩ (0 : Fin 2) * 1152 ≤ (i 0).val ∧ (i 0).val < win0_22.index ⟨(i 0).val / 1152, hlt⟩ (0 : Fin 2) * 1152 + 1152; omega
  | ⟨1, _⟩ => show win0_22.index ⟨(i 0).val / 1152, hlt⟩ (1 : Fin 2) * 128 ≤ (i 1).val ∧ (i 1).val < win0_22.index ⟨(i 0).val / 1152, hlt⟩ (1 : Fin 2) * 128 + 128; omega

/-- THE ARRAY after the run holds, at every place, `dp` of the site there. -/
theorem array_dp (c : Dev nD) : (dats m 0 c).arrAt 22 cfg0.N = fun j => (entrySite m c j).dpSub :=
  (dats m 0 c).arrAt_eq_of_cover 22 _ (fun t _ => flushed_dp m c t) cover_dp

end Cert.Relax

end
-- ==== Proof.Tail.lean ====
/-
  The three operations after the region.

  After the region the program lays each of the two 55296 × 128 output arrays out again as one vector of all
  the sites and joins the two vectors end to end. So @main's result is that join of the two arrays the
  region leaves, whatever they hold.
-/
import proofs.«144047_j2723009266046_1_alg».proof.Proof.Gen.KernelIdeal.Frame
import Idealize.ShloMosaic.Lib.StableHlo.Run

set_option maxRecDepth 16384

noncomputable section

namespace Cert.Relax

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- An array of 55296 rows of 128 laid out as one vector of all the sites. -/
def flat (v : S55296x128.Idx → F .f32) : S7077888.Idx → F .f32 :=
  shapeCast S7077888 v shapeCasts_S55296x128_S7077888

/-- Two vectors of all the sites joined end to end. -/
def joined (a b : S7077888.Idx → F .f32) : S14155776.Idx → F .f32 :=
  concatenate S14155776 0 [⟨S7077888, a⟩, ⟨S7077888, b⟩] concatenates_S7077888_S7077888_S14155776_d0

/-- @main's result after the lines that follow the region: the two output arrays, each as one vector, joined. -/
theorem result_after_region (c : Dev nD) :
    (Pipeline.afterTail₀ cfgs (dats m) 0 (V0 m) [hostOps1] c main_v110 : S14155776.Idx → F .f32)
      = joined (flat ((dats m 0 c).arrAt 21 cfg0.N)) (flat ((dats m 0 c).arrAt 22 cfg0.N)) := by
  unfold Pipeline.afterTail₀
  show StableHlo.after hostOps1 _ (Proc.devRef .tc main_v110) = _
  after_results
  rw [Pipeline.withArrays_arr spec0 launch0.win.arr_inj c _ _ 21, Pipeline.withArrays_arr spec0 launch0.win.arr_inj c _ _ 22]
  rfl

end Cert.Relax

end
-- ==== Proof.RefSite.lean ====
/-
  What the plain program computes at one site.

  The plain program cuts the field into `x` and `p`, looks both up at the six neighbour tables, and combines the
  fourteen resulting vectors with the seven coefficient vectors entry by entry. Every one of its arithmetic
  operations acts on each entry separately, so entry `i` of its two results is `dx`, `dp` of the SITE whose
  twenty-one numbers are entry `i` of those twenty-one vectors; it forms the negated damping by negation.
-/
import proofs.«144047_j2723009266046_1_alg».proof.Proof.Gen.ReferenceIdeal.Read
import proofs.«144047_j2723009266046_1_alg».proof.Proof.Site

set_option maxRecDepth 16384

noncomputable section

namespace Cert.Relax

open Idealize.ShloMosaic Cert.ReferenceIdeal Cert.ReferenceIdeal.Read

variable {F : FTy → Type} [FloatOps F]

/-- Site `i` as the plain program reads it: the two halves of the field, each looked up at the six tables, and
    the seven coefficients, all at entry `i`. -/
def refSite (X1 : (⟨S14155776, .f32⟩ : BufTy).Contents (Elt F)) (X2 X3 X4 X5 X6 X7 X8 : (⟨S7077888, .f32⟩ : BufTy).Contents (Elt F)) (X9 X10 X11 X12 X13 X14 : (⟨S7077888, .i32⟩ : BufTy).Contents (Elt F)) (i : S7077888.Idx) : Site F :=
  ⟨val_main_v0 (F := F) X1 i,
    val_main_v1 (F := F) X1 i,
    val_main_v8 (F := F) X1 X9 i,
    val_main_v15 (F := F) X1 X10 i,
    val_main_v23 (F := F) X1 X11 i,
    val_main_v31 (F := F) X1 X12 i,
    val_main_v39 (F := F) X1 X13 i,
    val_main_v46 (F := F) X1 X14 i,
    val_main_v57 (F := F) X1 X9 i,
    val_main_v64 (F := F) X1 X10 i,
    val_main_v72 (F := F) X1 X11 i,
    val_main_v80 (F := F) X1 X12 i,
    val_main_v88 (F := F) X1 X13 i,
    val_main_v95 (F := F) X1 X14 i,
    X2 i,
    X3 i,
    X4 i,
    X5 i,
    X6 i,
    X7 i,
    X8 i⟩

/-- Entry `i` of the first result vector is `dx` of site `i`. -/
theorem ref_dx (X1 : (⟨S14155776, .f32⟩ : BufTy).Contents (Elt F)) (X2 X3 X4 X5 X6 X7 X8 : (⟨S7077888, .f32⟩ : BufTy).Contents (Elt F)) (X9 X10 X11 X12 X13 X14 : (⟨S7077888, .i32⟩ : BufTy).Contents (Elt F)) (i : S7077888.Idx) :
    val_main_v114 (F := F) X1 X2 X3 X4 X6 X7 X8 X9 X10 X11 X12 X13 X14 i = (refSite X1 X2 X3 X4 X5 X6 X7 X8 X9 X10 X11 X12 X13 X14 i).dx := rfl

/-- Entry `i` of the second result vector is `dp` of site `i`, the negated damping formed by negation. -/
theorem ref_dp (X1 : (⟨S14155776, .f32⟩ : BufTy).Contents (Elt F)) (X2 X3 X4 X5 X6 X7 X8 : (⟨S7077888, .f32⟩ : BufTy).Contents (Elt F)) (X9 X10 X11 X12 X13 X14 : (⟨S7077888, .i32⟩ : BufTy).Contents (Elt F)) (i : S7077888.Idx) :
    val_main_v124 (F := F) X1 X2 X3 X4 X5 X7 X8 X9 X10 X11 X12 X13 X14 i = (refSite X1 X2 X3 X4 X5 X6 X7 X8 X9 X10 X11 X12 X13 X14 i).dpNeg := rfl

end Cert.Relax

end
-- ==== Proof.Bridge.lean ====
/-
  The kernel's result is the plain program's, as functions of the arguments.

  The region leaves, at every place of the 55296 × 128 layout, the derivative of the site there
  (Blocks.lean), where the site's twenty-one numbers are the plain program's twenty-one vectors laid out in
  rows (Entry.lean). Laying a vector out in rows and then as one vector again changes nothing, and doing so
  commutes with any entry-by-entry function. So the kernel's two vectors are, entry by entry, `dx` and `dp` of
  the plain program's site (RefSite.lean), joined end to end as the plain program joins them (Tail.lean). The
  only difference left is how the negated damping was formed — `0 − γ` against `−γ` —, one number on the
  extended reals.
-/
import proofs.«144047_j2723009266046_1_alg».proof.Proof.Entry
import proofs.«144047_j2723009266046_1_alg».proof.Proof.Blocks
import proofs.«144047_j2723009266046_1_alg».proof.Proof.Tail
import proofs.«144047_j2723009266046_1_alg».proof.Proof.RefSite

set_option maxRecDepth 16384

noncomputable section

namespace Cert.Relax

open Idealize.ShloMosaic Idealize.ShloMosaic.TcCoe Idealize.SL.Sem
open Cert.KernelIdeal Cert.KernelIdeal.Gen

variable {F : FTy → Type} [FloatOps F]

/-- Rows, then one vector again: the vector itself. -/
theorem flat_rows (v : S7077888.Idx → F .f32) : flat (rows v) = v :=
  shapeCast_shapeCast v shapeCasts_S7077888_S55296x128 shapeCasts_S55296x128_S7077888

variable (m : (ℓ : Loc nD τ sig) → Buf (Elt F) ℓ)

/-- Any entry-by-entry function of the region-entry sites, laid out as one vector, is that function of the plain
    program's sites: entry `i` of the vector sits at the place of the layout whose twenty-one array entries are
    entry `i` of the twenty-one vectors. -/
theorem flat_of_sites (c : Dev nD) (f : Site F → F .f32) :
    flat (fun j => f (entrySite m c j))
      = fun i => f (refSite (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) i) := by
  funext i
  show f (entrySite m c (Shape.reshapeEquiv _ i)) = _
  refine congrArg f ?_
  show (⟨flat (V m c main_v86) i, flat (V m c main_v87) i, flat (V m c main_v88) i, flat (V m c main_v89) i, flat (V m c main_v90) i, flat (V m c main_v91) i, flat (V m c main_v92) i, flat (V m c main_v93) i, flat (V m c main_v94) i, flat (V m c main_v95) i, flat (V m c main_v96) i, flat (V m c main_v97) i, flat (V m c main_v98) i, flat (V m c main_v99) i, flat (V m c main_v100) i, flat (V m c main_v101) i, flat (V m c main_v102) i, flat (V m c main_v103) i, flat (V m c main_v104) i, flat (V m c main_v105) i, flat (V m c main_v106) i⟩ : Site F) = _
  rw [entry0 m c, entry1 m c, entry2 m c, entry3 m c, entry4 m c, entry5 m c, entry6 m c, entry7 m c, entry8 m c, entry9 m c, entry10 m c, entry11 m c, entry12 m c, entry13 m c, entry14 m c, entry15 m c, entry16 m c, entry17 m c, entry18 m c, entry19 m c, entry20 m c]
  simp only [flat_rows]
  rfl

/-- @main's result, for the kernel, on the extended reals: the plain program's result function of the kernel's
    own arguments. -/
theorem kernel_value (m : (ℓ : Loc nD τ sig) → Buf (Elt Ideal) ℓ) (c : Dev nD) :
    (Pipeline.afterTail₀ cfgs (dats m) 0 (V0 m) [hostOps1] c main_v110 : S14155776.Idx → Ideal .f32)
      = Cert.ReferenceIdeal.Read.val_main_v125 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [result_after_region m c, array_dx m c, array_dp m c, flat_of_sites m c Site.dx, flat_of_sites m c Site.dpSub]
  have hneg : (fun i => (refSite (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) i).dpSub)
      = fun i => (refSite (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) i).dpNeg :=
    funext fun i => Site.dpSub_eq_dpNeg _
  rw [hneg]
  rfl

end Cert.Relax

end
-- ==== Proof.KernelRun.lean ====
/-
  The kernel's run on the extended reals, with its result named.

  Every weakly fair execution of the kernel's @main terminates without a fault; its result buffer then holds the
  plain program's result function of the kernel's own argument arrays (Bridge.lean), and the argument arrays are
  as launched (no line after the region writes one).
-/
import proofs.«144047_j2723009266046_1_alg».proof.Proof.Bridge

set_option maxRecDepth 16384

noncomputable section

namespace Cert.Relax

open Idealize.ShloMosaic Idealize.ShloMosaic.TcCoe Idealize.SL.Sem
open Cert.KernelIdeal Cert.KernelIdeal.Gen

theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v110)
        = Cert.ReferenceIdeal.Read.val_main_v125 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_v110 (Pipeline.mem_restRefs_of main_v110 (by decide) (by decide))).trans (kernel_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩)
    (run_main m ρ)

end Cert.Relax

end
-- ==== Proof.lean ====
/-
  The certificate: a lattice-relaxation right-hand side, tiled, against the same formulas written plainly.

  Both programs take the field `y = (x, p)` on all the sites, six tables of neighbour indices and seven
  coefficient vectors, and return `(dx, dp)`, where at each site (Proof/Site.lean)

      dx = γ·p·cross + e·p − yL + h_y + β·r²·p ,      dp = −γ·x·cross − e·x + xL − h_x − β·r²·x ,

  `xL`, `yL` the couplings to the six neighbours' `x` and `p`, `r² = x² + p²`, `cross = xL·p − yL·x`. The plain
  program computes this on vectors of all the sites. The kernel does the twelve table look-ups with the same
  host operations, lays every vector out as 55296 rows of 128, combines them in a grid of 48 blocks of 1152 rows,
  and lays the two result arrays out as vectors again before joining them.

  · The three runs (termination, no fault, arguments unchanged): the two kernels' are the generated frames; the
    plain program's is its generated run with the result dropped.
  · The idealization rewrote no operation, so there is nothing to preserve.
  · Equal results on the extended reals: the tiling and the two changes of layout move no number to another site
    (Proof/Blocks.lean, Proof/Bridge.lean), the look-ups are the same operations on the same tables and are never
    opened (Proof/Entry.lean), and at each site the two programs apply the same tree of sums and products, except
    that the kernel writes the negated damping as `0 − γ` — equal to `−γ` on every extended real, infinities
    included, so the precondition is not used.
-/
import proofs.«144047_j2723009266046_1_alg».proof.Defs
import proofs.«144047_j2723009266046_1_alg».proof.Proof.Gen.Kernel
import proofs.«144047_j2723009266046_1_alg».proof.Proof.Gen.Kernel.Skeleton
import proofs.«144047_j2723009266046_1_alg».proof.Proof.Gen.Kernel.Launch
import proofs.«144047_j2723009266046_1_alg».proof.Proof.Gen.Kernel.Points
import proofs.«144047_j2723009266046_1_alg».proof.Proof.Gen.Kernel.Frame
import proofs.«144047_j2723009266046_1_alg».proof.Proof.Gen.KernelIdeal
import proofs.«144047_j2723009266046_1_alg».proof.Proof.Gen.KernelIdeal.Skeleton
import proofs.«144047_j2723009266046_1_alg».proof.Proof.Gen.KernelIdeal.Launch
import proofs.«144047_j2723009266046_1_alg».proof.Proof.Gen.KernelIdeal.Points
import proofs.«144047_j2723009266046_1_alg».proof.Proof.Gen.KernelIdeal.Frame
import proofs.«144047_j2723009266046_1_alg».proof.Proof.Gen.ReferenceIdeal
import proofs.«144047_j2723009266046_1_alg».proof.Proof.Gen.ReferenceIdeal.Run
import proofs.«144047_j2723009266046_1_alg».proof.Proof.Gen.ReferenceIdeal.Read
import proofs.«144047_j2723009266046_1_alg».proof.Proof.Gen.Pre_finite_inputs
import proofs.«144047_j2723009266046_1_alg».proof.Proof.KernelRun
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The plain program's run with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the plain program's result function of the kernel's arguments: the kernel's by
    `Cert.Relax.kernel_run`, the plain program's by its generated run, read stage by stage, from arguments that agree. -/
theorem algebraic : Cert.algebraic_KernelIdeal_ReferenceIdeal := by
  intro m ρ m' ρ' _ hagree
  refine ⟨fun c => Cert.ReferenceIdeal.Read.val_main_v125 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.Relax.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v125_eq, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
